-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : IVec S4096x4096 32) (main_arg2 : FVec F S4096 .f32) (main_arg3 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S_ : Shape := ⟨0, ![]⟩
abbrev S4096x4096x1 : Shape := ⟨3, ![4096, 4096, 1]⟩
abbrev S1 : Shape := ⟨1, ![1]⟩
abbrev S1x1x1 : Shape := ⟨3, ![1, 1, 1]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 30
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x4096, .i32⟩
  | .hbm, ⟨2, _⟩ => ⟨S4096, .f32⟩
  | .hbm, ⟨3, _⟩ => ⟨S4096, .f32⟩
  | .hbm, ⟨4, _⟩ => ⟨S_, .i32⟩
  | .hbm, ⟨5, _⟩ => ⟨S4096x4096, .i32⟩
  | .hbm, ⟨6, _⟩ => ⟨S4096x4096, .i1⟩
  | .hbm, ⟨7, _⟩ => ⟨S_, .i32⟩
  | .hbm, ⟨8, _⟩ => ⟨S4096x4096, .i32⟩
  | .hbm, ⟨9, _⟩ => ⟨S4096x4096, .i32⟩
  | .hbm, ⟨10, _⟩ => ⟨S4096x4096, .i32⟩
  | .hbm, ⟨11, _⟩ => ⟨S4096x4096x1, .i32⟩
  | .hbm, ⟨12, _⟩ => ⟨S1, .i32⟩
  | .hbm, ⟨13, _⟩ => ⟨S_, .i32⟩
  | .hbm, ⟨14, _⟩ => ⟨S4096x4096x1, .i32⟩
  | .hbm, ⟨15, _⟩ => ⟨S4096x4096x1, .i1⟩
  | .hbm, ⟨16, _⟩ => ⟨S1x1x1, .i32⟩
  | .hbm, ⟨17, _⟩ => ⟨S4096x4096x1, .i32⟩
  | .hbm, ⟨18, _⟩ => ⟨S4096x4096x1, .i1⟩
  | .hbm, ⟨19, _⟩ => ⟨S4096x4096x1, .i1⟩
  | .hbm, ⟨20, _⟩ => ⟨S_, .i1⟩
  | .hbm, ⟨21, _⟩ => ⟨S4096x4096, .i1⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .bf16⟩
  | .hbm, ⟨27, _⟩ => ⟨S4096x4096, .bf16⟩
  | .hbm, ⟨28, _⟩ => ⟨S1x4096, .f32⟩
  | .hbm, ⟨29, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bcast_S_S4096x4096x1 : S_.BroadcastsInDim S4096x4096x1 (![] : Fin 0 → Fin S4096x4096x1.rank)
  bcast_S1_S1x1x1_2 : S1.BroadcastsInDim S1x1x1 (![2] : Fin 1 → Fin S1x1x1.rank)
  bcast_S1x1x1_S4096x4096x1_0_1_2 : S1x1x1.BroadcastsInDim S4096x4096x1 (![0, 1, 2] : Fin 3 → Fin S4096x4096x1.rank)
  reducesTo_S4096x4096x1_S4096x4096_d2 : S4096x4096x1.ReducesTo [2] S4096x4096
  h_S_ : 0 < S_.numel
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  gather_S4096_S4096x4096x1_S4096x4096_n_0_n_n_0_2_1_wf : GatherDims.WF S4096 S4096x4096x1 S4096x4096 [] [0] [] [0] [] 2 ![1]
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)

variable [Facts₀]

def gather_S4096_S4096x4096x1_S4096x4096_n_0_n_n_0_2_1 : GatherDims S4096 S4096x4096x1 S4096x4096 where
  offsetDims := []
  collapsedSliceDims := [0]
  operandBatchingDims := []
  startIndicesBatchingDims := []
  startIndexMap := [0]
  indexVectorDim := 2
  sliceSizes := ![1]
  wf := gather_S4096_S4096x4096x1_S4096x4096_n_0_n_n_0_2_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S_ : Shape := ⟨0, ![]⟩
abbrev S4096x4096x1 : Shape := ⟨3, ![4096, 4096, 1]⟩
abbrev S1 : Shape := ⟨1, ![1]⟩
abbrev S1x1x1 : Shape := ⟨3, ![1, 1, 1]⟩
abbrev S1x4096 : Shape := ⟨2, ![1, 4096]⟩

abbrev nBuf : Space → Nat
  | .hbm => 30
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .i32⟩
  | .hbm, ⟨2, _⟩ => ⟨S4096, .f32⟩
  | .hbm, ⟨3, _⟩ => ⟨S4096, .f32⟩
  | .hbm, ⟨4, _⟩ => ⟨S_, .i32⟩
  | .hbm, ⟨5, _⟩ => ⟨S4096x4096, .i32⟩
  | .hbm, ⟨6, _⟩ => ⟨S4096x4096, .i1⟩
  | .hbm, ⟨7, _⟩ => ⟨S_, .i32⟩
  | .hbm, ⟨8, _⟩ => ⟨S4096x4096, .i32⟩
  | .hbm, ⟨9, _⟩ => ⟨S4096x4096, .i32⟩
  | .hbm, ⟨10, _⟩ => ⟨S4096x4096, .i32⟩
  | .hbm, ⟨11, _⟩ => ⟨S4096x4096x1, .i32⟩
  | .hbm, ⟨12, _⟩ => ⟨S1, .i32⟩
  | .hbm, ⟨13, _⟩ => ⟨S_, .i32⟩
  | .hbm, ⟨14, _⟩ => ⟨S4096x4096x1, .i32⟩
  | .hbm, ⟨15, _⟩ => ⟨S4096x4096x1, .i1⟩
  | .hbm, ⟨16, _⟩ => ⟨S1x1x1, .i32⟩
  | .hbm, ⟨17, _⟩ => ⟨S4096x4096x1, .i32⟩
  | .hbm, ⟨18, _⟩ => ⟨S4096x4096x1, .i1⟩
  | .hbm, ⟨19, _⟩ => ⟨S4096x4096x1, .i1⟩
  | .hbm, ⟨20, _⟩ => ⟨S_, .i1⟩
  | .hbm, ⟨21, _⟩ => ⟨S4096x4096, .i1⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S1x4096, .f32⟩
  | .hbm, ⟨28, _⟩ => ⟨S4096x4096, .f32⟩
  | .hbm, ⟨29, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bcast_S_S4096x4096x1 : S_.BroadcastsInDim S4096x4096x1 (![] : Fin 0 → Fin S4096x4096x1.rank)
  bcast_S1_S1x1x1_2 : S1.BroadcastsInDim S1x1x1 (![2] : Fin 1 → Fin S1x1x1.rank)
  bcast_S1x1x1_S4096x4096x1_0_1_2 : S1x1x1.BroadcastsInDim S4096x4096x1 (![0, 1, 2] : Fin 3 → Fin S4096x4096x1.rank)
  reducesTo_S4096x4096x1_S4096x4096_d2 : S4096x4096x1.ReducesTo [2] S4096x4096
  h_S_ : 0 < S_.numel
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  gather_S4096_S4096x4096x1_S4096x4096_n_0_n_n_0_2_1_wf : GatherDims.WF S4096 S4096x4096x1 S4096x4096 [] [0] [] [0] [] 2 ![1]
  dot_S4096x4096_S4096x4096_S4096x4096_1_0_0_1_n_n_wf : DotDims.WF S4096x4096 S4096x4096 S4096x4096 [1] [0] [0] [1] [] []

variable [Facts₀]

def gather_S4096_S4096x4096x1_S4096x4096_n_0_n_n_0_2_1 : GatherDims S4096 S4096x4096x1 S4096x4096 where
  offsetDims := []
  collapsedSliceDims := [0]
  operandBatchingDims := []
  startIndicesBatchingDims := []
  startIndexMap := [0]
  indexVectorDim := 2
  sliceSizes := ![1]
  wf := gather_S4096_S4096x4096x1_S4096x4096_n_0_n_n_0_2_1_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.KernelPieces.lean ====
/-
  What one grid point of the matmul kernel leaves behind, case by case, as pure terms of what it loads.

  The body keeps a running [1024, 1024] accumulator in a scratch buffer.  With `a` and `b` the two
  operand blocks of the point, `step acc a b = acc + a · b` (the block product into a zero
  accumulator, then added to `acc`):
    * at the first point of a run (contraction block 0) the accumulator is first set to zero, so the
      scratch ends at `step 0 a b`;
    * at a middle point it ends at `step acc a b` of what the point before left;
    * at the last point of a run (contraction block 3) it ends at `step acc a b` too, and the
      output block is that value plus the bias row broadcast down the rows.
  Each statement reads back the stores the body's run made (one or two whole-buffer stores), so it
  holds at any instance of the float operations.
-/
import proofs.«108283_j73212012527737_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First point of a run: the scratch is zeroed, read back, and ends at `0 + a · b`. -/
theorem scratch_first (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : cond0_0 i) (hc1 : ¬cond0_1 i) (x0 x1 : Vec F S1024x1024 .bf16) (x2 : Vec F S1x1024 .f32) :
    sout0_A_0 c i a3 h3 a4 h4 a5 h5 a6 h6 a7 h7 hc0 hc1 x0 x1 x2 = k0_pay2 (k0_pay1 (F := F)) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- Middle point of a run: the scratch ends at `acc + a · b`. -/
theorem scratch_middle (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : ¬cond0_1 i) (x0 x1 : Vec F S1024x1024 .bf16) (x2 : Vec F S1x1024 .f32) (acc : Vec F S1024x1024 .f32) :
    sout0_B_0 c i a3 h3 a4 h4 a5 h5 a6 h6 a7 h7 hc0 hc1 x0 x1 x2 acc = k0_pay2 acc x0 x1 := by
  unfold sout0_B_0
  rw [View.read_writes_eq_canon _ _ _ (scover0_B_0 c i a3 h3 a4 h4 a5 h5 a6 h6 a7 h7 hc0 hc1 x0 x1 x2 acc)]
  unfold kernelRun0_B
  dsimp only
  sl_unfold_words
  rw [View.canon_unit_zero hz]
  simp only [View.readAt_eq_ld, h3.read_unread, h4.read_unread, h7.read_unread, View.ld_unit_zero (S := S1024x1024) hz]

/-- Last point of a run: the scratch ends at `acc + a · b` as well. -/
theorem scratch_last (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i) (x0 x1 : Vec F S1024x1024 .bf16) (x2 : Vec F S1x1024 .f32) (acc : Vec F S1024x1024 .f32) :
    sout0_C_0 c i a3 h3 a4 h4 a5 h5 a6 h6 a7 h7 hc0 hc1 x0 x1 x2 acc = k0_pay2 acc x0 x1 := by
  unfold sout0_C_0
  rw [View.read_writes_eq_canon _ _ _ (scover0_C_0 c i a3 h3 a4 h4 a5 h5 a6 h6 a7 h7 hc0 hc1 x0 x1 x2 acc)]
  unfold kernelRun0_C
  dsimp only
  sl_unfold_words
  rw [View.canon_unit_zero hz]
  simp only [View.readAt_eq_ld, h3.read_unread, h4.read_unread, h7.read_unread, View.ld_unit_zero (S := S1024x1024) hz]

/-- Last point of a run: the output block is the finished accumulator plus the bias row. -/
theorem out_last (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i) (x0 x1 : Vec F S1024x1024 .bf16) (x2 : Vec F S1x1024 .f32) (acc : Vec F S1024x1024 .f32) :
    out0_C_3 c i a3 h3 a4 h4 a5 h5 a6 h6 a7 h7 hc0 hc1 x0 x1 x2 acc = k0_pay3 (k0_pay2 acc x0 x1) x2 := by
  unfold out0_C_3
  rw [View.read_writes_eq_canon _ _ _ (cover0_C_3 c i a3 h3 a4 h4 a5 h5 a6 h6 a7 h7 hc0 hc1 x0 x1 x2 acc)]
  unfold kernelRun0_C
  dsimp only
  sl_unfold_words
  rw [View.canon_unit_zero hz, View.readCov_unit_zero (S := S1024x1024) _ hz]
  simp only [View.readAt_eq_ld, h3.read_unread, h4.read_unread, h5.read_unread, h7.read_unread,
    View.ld_unit_zero (S := S1024x1024) hz, View.ld_unit_zero (S := S1x1024) hz]

end Cert.KernelIdeal.Pieces

end
-- ==== Proof.KernelPayload.lean ====
/-
  The body's three payloads read at one entry (p, q) of a [1024, 1024] block, on the extended reals:
    * the reset value is 0;
    * the step is `acc[p, q] + ∑ₖ a[p, k] · b[k, q]`, the sum over the 1024 positions of the block's
      contraction axis (the matrix unit accumulates into a zero block, exactly, and a change of
      float format is the identity);
    * the epilogue is `v[p, q] + bias[0, q]`: the bias row is repeated down the rows.
-/
import proofs.«108283_j73212012527737_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.ShloMosaic.ValueIdx

namespace Cert.KernelIdeal.Payload

open Cert.KernelIdeal Cert.KernelIdeal.Gen

/-- The block product's contraction index is its one coordinate, a position among 1024. -/
abbrev contr : dot_S1024x1024_S1024x1024_S1024x1024_1_0_0_1_n_n.contr.Idx ≃ Fin 1024 :=
  contrEquiv1 dot_S1024x1024_S1024x1024_S1024x1024_1_0_0_1_n_n 1024 rfl rfl

/-- At output entry (p, q) and contraction position k the left operand is read at (p, k), -/
theorem lhs_at (p q k : Fin 1024) :
    dot_S1024x1024_S1024x1024_S1024x1024_1_0_0_1_n_n.lhsIdx (ix2 p q) (contr.symm k) = ix2 p k := by
  funext a
  apply Fin.ext
  match a with
  | ⟨0, _⟩ => rfl
  | ⟨1, _⟩ =>
    exact (DotDims.lhsIdx_val_of_single _ (cl := (1 : Fin 2)) rfl _ _).trans
      (contrEquiv1_symm_val dot_S1024x1024_S1024x1024_S1024x1024_1_0_0_1_n_n 1024 rfl rfl k)

/-- and the right operand at (k, q). -/
theorem rhs_at (p q k : Fin 1024) :
    dot_S1024x1024_S1024x1024_S1024x1024_1_0_0_1_n_n.rhsIdx (ix2 p q) (contr.symm k) = ix2 k q := by
  funext a
  apply Fin.ext
  match a with
  | ⟨0, _⟩ =>
    exact (DotDims.rhsIdx_val_of_single _ (cr := (0 : Fin 2)) rfl _ _).trans
      (contrEquiv1_symm_val dot_S1024x1024_S1024x1024_S1024x1024_1_0_0_1_n_n 1024 rfl rfl k)
  | ⟨1, _⟩ => rfl

/-- The reset value: zero everywhere. -/
theorem reset_apply (j : S1024x1024.Idx) : k0_pay1 (F := Ideal) j = 0 := by
  unfold k0_pay1
  simp only [shapeCast_self]
  exact Ideal.ofBits_zero_f32

/-- The step at (p, q): the accumulator's entry plus the block product's. -/
theorem step_apply (acc : FVec Ideal S1024x1024 .f32) (a b : FVec Ideal S1024x1024 .bf16) (p q : Fin 1024) :
    k0_pay2 acc a b (ix2 p q) = acc (ix2 p q) + ∑ k : Fin 1024, a (ix2 p k) * b (ix2 k q) := by
  unfold k0_pay2
  simp only [shapeCast_self]
  refine congrArg (acc (ix2 p q) + ·) ?_
  refine (Ideal.matmul_constant_zero_apply dot_S1024x1024_S1024x1024_S1024x1024_1_0_0_1_n_n none a b (ix2 p q)).trans ?_
  refine (Equiv.sum_comp contr.symm _).symm.trans ?_
  exact Finset.sum_congr rfl fun k _ => by rw [lhs_at, rhs_at]

/-- The epilogue at (p, q): the value's entry plus the bias row's entry q. -/
theorem bias_apply (v : FVec Ideal S1024x1024 .f32) (r : FVec Ideal S1x1024 .f32) (p q : Fin 1024) :
    k0_pay3 v r (ix2 p q) = v (ix2 p q) + r (ix2 0 q) := by
  unfold k0_pay3
  simp only [shapeCast_self]
  refine congrArg (v (ix2 p q) + ·) ?_
  exact broadcastTo_1b_ab_apply r broadcasts_S1x1024_S1024x1024 p q

end Cert.KernelIdeal.Payload

end
-- ==== Proof.KernelBlocks.lean ====
/-
  Where each window's block sits in its array.  The grid has 4 · 4 · 4 points; point t = 16·i + 4·j + l
  works on output block (i, j) and contraction block l.  The left operand's block is rows
  1024·i … of columns 1024·l …; the right operand's is rows 1024·l … of columns 1024·j …; the
  bias window's is columns 1024·j … of its one row; the output's is rows 1024·i … of columns
  1024·j ….  So an entry of a block is the array's entry at the shifted position, whatever the
  array holds.
-/
import proofs.«108283_j73212012527737_1_alg».proof.Proof.Gen.KernelIdeal.Frame.Runs
import Idealize.ShloMosaic.Lib.ValueIdx
import Idealize.ShloMosaic.Lib.Pipeline.Value

noncomputable section

open Idealize.ShloMosaic Idealize.ShloMosaic.TcCoe Idealize.SL.Sem Idealize.ShloMosaic.ValueIdx

namespace Cert.KernelIdeal.Blocks

open Cert.KernelIdeal Cert.KernelIdeal.Gen

/-- The four index maps at point t, decided over the grid. -/
theorem idx_facts : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- The left operand's block at point t, entry (p, k), of ANY array: its entry
    (1024·(t/16) + p, 1024·(t%4) + k). -/
theorem read_lhs (f : (⟨2, ![4096, 4096]⟩ : Shape).Idx → EReal) (t : Fin cfg0.N) (p k : Fin 1024)
    (i : (⟨2, ![4096, 4096]⟩ : Shape).Idx)
    (h0 : (i 0).val = 1024 * (t.val / 16) + p.val) (h1 : (i 1).val = 1024 * (t.val % 4) + k.val) :
    ((cfg0.win 0).blk t).view.read (Elt Ideal) f (ix2 p k) = f i := by
  obtain ⟨e0, e1, -⟩ := idx_facts t
  rw [View.read_apply]
  show f (((cfg0.win 0).blk t).view.emb (ix2 p k)) = f i
  refine congrArg f (funext fun a => Fin.ext ?_)
  match a with
  | ⟨0, _⟩ => show win0_0.index t (0 : Fin 2) * 1024 + 1 * p.val = (i 0).val; omega
  | ⟨1, _⟩ => show win0_0.index t (1 : Fin 2) * 1024 + 1 * k.val = (i 1).val; omega

/-- The right operand's block at point t, entry (k, q), of any array: its entry
    (1024·(t%4) + k, 1024·(t/4%4) + q). -/
theorem read_rhs (f : (⟨2, ![4096, 4096]⟩ : Shape).Idx → EReal) (t : Fin cfg0.N) (k q : Fin 1024)
    (i : (⟨2, ![4096, 4096]⟩ : Shape).Idx)
    (h0 : (i 0).val = 1024 * (t.val % 4) + k.val) (h1 : (i 1).val = 1024 * (t.val / 4 % 4) + q.val) :
    ((cfg0.win 1).blk t).view.read (Elt Ideal) f (ix2 k q) = f i := by
  obtain ⟨-, -, e0, e1, -⟩ := idx_facts t
  rw [View.read_apply]
  show f (((cfg0.win 1).blk t).view.emb (ix2 k q)) = f i
  refine congrArg f (funext fun a => Fin.ext ?_)
  match a with
  | ⟨0, _⟩ => show win0_1.index t (0 : Fin 2) * 1024 + 1 * k.val = (i 0).val; omega
  | ⟨1, _⟩ => show win0_1.index t (1 : Fin 2) * 1024 + 1 * q.val = (i 1).val; omega

/-- The bias window's block at point t, entry (0, q), of any one-row array: its entry 1024·(t/4%4) + q. -/
theorem read_bias (f : (⟨2, ![1, 4096]⟩ : Shape).Idx → EReal) (t : Fin cfg0.N) (q : Fin 1024)
    (i : (⟨2, ![1, 4096]⟩ : Shape).Idx) (h1 : (i 1).val = 1024 * (t.val / 4 % 4) + q.val) :
    ((cfg0.win 2).blk t).view.read (Elt Ideal) f (ix2 (0 : Fin 1) q) = f i := by
  obtain ⟨-, -, -, -, e0, e1, -⟩ := idx_facts t
  rw [View.read_apply]
  show f (((cfg0.win 2).blk t).view.emb (ix2 (0 : Fin 1) q)) = f i
  refine congrArg f (funext fun a => Fin.ext ?_)
  match a with
  | ⟨0, _⟩ => show win0_2.index t (0 : Fin 2) * 1 + 1 * 0 = (i 0).val; have hi : (i 0).val < 1 := (i 0).isLt; omega
  | ⟨1, _⟩ => show win0_2.index t (1 : Fin 2) * 1024 + 1 * q.val = (i 1).val; omega

/-- The output's block at point t, entry y, sits at (1024·(t/16) + y₀, 1024·(t/4%4) + y₁). -/
theorem out_pos (t : Fin cfg0.N) (y : S1024x1024.Idx) :
    ((((cfg0.win 3).blk t).view.emb y) 0).val = 1024 * (t.val / 16) + (y 0).val
    ∧ ((((cfg0.win 3).blk t).view.emb y) 1).val = 1024 * (t.val / 4 % 4) + (y 1).val := by
  obtain ⟨-, -, -, -, -, -, e0, e1⟩ := idx_facts t
  constructor
  · show win0_3.index t (0 : Fin 2) * 1024 + 1 * (y 0).val = _; omega
  · show win0_3.index t (1 : Fin 2) * 1024 + 1 * (y 1).val = _; omega

variable (m : (ℓ : Loc nD τ sig) → Buf (Elt Ideal) ℓ)

/-- The three staged arrays as the region finds them, as arrays of extended reals. -/
def lhsArr (c : Dev nD) : (⟨2, ![4096, 4096]⟩ : Shape).Idx → EReal := V m c (Pipeline.arrRef spec0 0)
def rhsArr (c : Dev nD) : (⟨2, ![4096, 4096]⟩ : Shape).Idx → EReal := V m c (Pipeline.arrRef spec0 1)
def biasArr (c : Dev nD) : (⟨2, ![1, 4096]⟩ : Shape).Idx → EReal := V m c (Pipeline.arrRef spec0 2)

theorem lhs_blk (c : Dev nD) (t : Fin cfg0.N) (p k : Fin 1024) (i : S4096x4096.Idx)
    (h0 : (i 0).val = 1024 * (t.val / 16) + p.val) (h1 : (i 1).val = 1024 * (t.val % 4) + k.val) :
    iblk m c 0 t (ix2 p k) = lhsArr m c i := by
  unfold iblk lhsArr
  exact read_lhs _ t p k i h0 h1

theorem rhs_blk (c : Dev nD) (t : Fin cfg0.N) (k q : Fin 1024) (i : S4096x4096.Idx)
    (h0 : (i 0).val = 1024 * (t.val % 4) + k.val) (h1 : (i 1).val = 1024 * (t.val / 4 % 4) + q.val) :
    iblk m c 1 t (ix2 k q) = rhsArr m c i := by
  unfold iblk rhsArr
  exact read_rhs _ t k q i h0 h1

theorem bias_blk (c : Dev nD) (t : Fin cfg0.N) (q : Fin 1024) (i : S1x4096.Idx)
    (h1 : (i 1).val = 1024 * (t.val / 4 % 4) + q.val) :
    iblk m c 2 t (ix2 (0 : Fin 1) q) = biasArr m c i := by
  unfold iblk biasArr
  exact read_bias _ t q i h1

end Cert.KernelIdeal.Blocks

end
-- ==== Proof.LibBlockSum.lean ====
/-
  A sum over an index range cut into consecutive blocks of equal length is the sum of the blocks' sums.
  Stated over any additive commutative monoid: only commutativity and associativity of addition are
  used, so it holds on the extended reals with no finiteness assumption.
-/
import Mathlib.Algebra.BigOperators.Fin
import Mathlib.Algebra.BigOperators.Intervals

namespace Cert.LibBlockSum

open Finset

variable {M : Type*} [AddCommMonoid M]

/-- The first `n * b` terms, taken `b` at a time: block `s` holds the terms `b * s, …, b * s + b - 1`. -/
theorem sum_range_blocks (g : ℕ → M) (b : ℕ) :
    ∀ n : ℕ, ∑ k ∈ range (n * b), g k = ∑ s ∈ range n, ∑ j ∈ range b, g (b * s + j)
  | 0 => by simp
  | n + 1 => by
    rw [Nat.succ_mul, sum_range_add, sum_range_blocks g b n, sum_range_succ, Nat.mul_comm n b]

/-- The same with both the whole range and each block indexed by `Fin`. -/
theorem sum_fin_blocks (g : ℕ → M) (n b : ℕ) :
    ∑ k : Fin (n * b), g k.val = ∑ s ∈ range n, ∑ j : Fin b, g (b * s + j.val) := by
  rw [Fin.sum_univ_eq_sum_range g (n * b), sum_range_blocks g b n]
  exact sum_congr rfl fun s _ => (Fin.sum_univ_eq_sum_range (fun j => g (b * s + j)) b).symm

end Cert.LibBlockSum
-- ==== Proof.Spec.lean ====
/-
  The function both programs compute, on the extended reals: entry (r, c) of the result is
  `∑ₖ x[r, k] · w[k, c] + bias[c]`, one sum over the 4096 positions of the shared axis.
  The kernel reaches that sum in four stretches of 1024 positions; cutting the sum into those
  stretches uses only that addition is commutative and associative.
-/
import proofs.«108283_j73212012527737_1_alg».proof.Proof.LibBlockSum
import Idealize.ShloMosaic.PureOps.Ideal
import Idealize.ShloMosaic.Lib.ValueIdx

noncomputable section

open Idealize.ShloMosaic Idealize.ShloMosaic.ValueIdx

namespace Cert.Spec

/-- Entry (r, c) of `x · w + bias`. -/
def affineAt (x w : (⟨2, ![4096, 4096]⟩ : Shape).Idx → EReal) (b : (⟨1, ![4096]⟩ : Shape).Idx → EReal)
    (r c : Fin 4096) : EReal :=
  (∑ k : Fin 4096, x (ix2 r k) * w (ix2 k c)) + b (ix1 c)

/-- `x · w + bias` as a whole [4096, 4096] array. -/
def affine (x w : (⟨2, ![4096, 4096]⟩ : Shape).Idx → EReal) (b : (⟨1, ![4096]⟩ : Shape).Idx → EReal) :
    (⟨2, ![4096, 4096]⟩ : Shape).Idx → EReal :=
  fun i => affineAt x w b (i 0) (i 1)

/-- A term of the long sum by its position, zero past the end. -/
def term (f : Fin 4096 → EReal) (n : ℕ) : EReal := if h : n < 4096 then f ⟨n, h⟩ else 0

theorem term_of_lt (f : Fin 4096 → EReal) (n : ℕ) (h : n < 4096) : term f n = f ⟨n, h⟩ := dif_pos h

/-- The sum over 4096 positions is the sum of its four stretches of 1024. -/
theorem sum_stretches (f : Fin 4096 → EReal) :
    ∑ k : Fin 4096, f k = ∑ s ∈ Finset.range 4, ∑ j : Fin 1024, term f (1024 * s + j.val) := by
  have e : ∑ k : Fin 4096, f k = ∑ k : Fin (4 * 1024), term f k.val :=
    Finset.sum_congr rfl fun k _ => (term_of_lt f k.val k.isLt).symm
  rw [e]
  exact Cert.LibBlockSum.sum_fin_blocks (term f) 4 1024

end Cert.Spec

end
-- ==== Proof.KernelValue.lean ====
/-
  The kernel's result array, read back.

  Write a grid point as t = 16·i + 4·j + l.  The four points of a run (l = 0, 1, 2, 3; i and j fixed)
  accumulate in the scratch buffer: after point l it holds `0 + ∑_{s ≤ l} A_s · B_s`, where
  `A_s · B_s` is the product of the two operand blocks of point 4·(t/4) + s (the fold of the run from
  its reset, unrolled).  At l = 3 the output block (i, j) is that accumulator plus the bias row,
  and it is the only time the block is written back.  Entry (p, q) of the accumulator after the run is
  `0 + ∑_{s < 4} ∑_{k < 1024} X[1024 i + p, 1024 s + k] · W[1024 s + k, 1024 j + q]`, which is the
  single sum over the 4096 positions of the shared axis cut into its four stretches.  The sixteen
  written-back blocks tile the array, so the whole array ends at `X · W + bias row`.
-/
import proofs.«108283_j73212012527737_1_alg».proof.Proof.KernelPieces
import proofs.«108283_j73212012527737_1_alg».proof.Proof.KernelPayload
import proofs.«108283_j73212012527737_1_alg».proof.Proof.KernelBlocks
import proofs.«108283_j73212012527737_1_alg».proof.Proof.Spec
import proofs.«108283_j73212012527737_1_alg».proof.Proof.Gen.KernelIdeal.Value

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Blocks

variable (m : (ℓ : Loc nD τ sig) → Buf (Elt Ideal) ℓ) (ρ : Dev nD → PrngReg)

/-- The product of two operand blocks at an entry of the output block. -/
def blockProd (a b : FVec Ideal S1024x1024 .bf16) (i : S1024x1024.Idx) : EReal :=
  ∑ k : Fin 1024, a (ix2 (n0 := 1024) (n1 := 1024) (i 0) k) * b (ix2 (n0 := 1024) (n1 := 1024) k (i 1))

/-- The step at any entry: the accumulator's entry plus the block product's. -/
theorem step_at (acc : FVec Ideal S1024x1024 .f32) (a b : FVec Ideal S1024x1024 .bf16) (i : S1024x1024.Idx) :
    k0_pay2 acc a b i = acc i + blockProd a b i := by
  obtain ⟨p, q, rfl⟩ : ∃ (p q : Fin 1024), i = ix2 p q := ⟨i 0, i 1, eq_ix2 i⟩
  exact Payload.step_apply acc a b p q

/-- What point n adds to the accumulator: the product of its two operand blocks (nothing past the grid). -/
def addend (c : Dev nD) (n : ℕ) (i : S1024x1024.Idx) : EReal :=
  if h : n < cfg0.N then blockProd (iblk m c 0 ⟨n, h⟩) (iblk m c 1 ⟨n, h⟩) i else 0

/-- One point's effect on the scratch, at an entry: a run's first point starts from zero, the others
    from what the point before left. -/
theorem scAt_apply (c : Dev nD) (n : ℕ) (hb : n < cfg0.N) (acc : Vec Ideal S1024x1024 .f32) (i : S1024x1024.Idx) :
    Value.scAt0_0 m c n hb acc i = (if n % 4 = 0 then 0 else acc i) + addend m c n i := by
  have hN : n < 64 := lt_of_lt_of_eq hb N_0
  have hM : addend m c n i = blockProd (iblk m c 0 ⟨n, hb⟩) (iblk m c 1 ⟨n, hb⟩) i := dif_pos hb
  rw [hM]
  unfold Value.scAt0_0
  by_cases h0 : n % 4 = 0
  · have h1 : ¬n % 4 = 3 := by omega
    rw [dif_pos h0, dif_neg h1, if_pos h0]
    refine (congrFun (Pieces.scratch_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _)
      ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N))) i).trans ?_
    refine (step_at (k0_pay1 (F := Ideal)) (iblk m c 0 (⟨n, hb⟩ : Fin cfg0.N)) (iblk m c 1 (⟨n, hb⟩ : Fin cfg0.N)) i).trans ?_
    rw [Payload.reset_apply]
  · by_cases h1 : n % 4 = 3
    · rw [dif_neg h0, dif_pos h1, if_neg h0]
      refine (congrFun (Pieces.scratch_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _)
        (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) acc) i).trans ?_
      exact step_at acc (iblk m c 0 (⟨n, hb⟩ : Fin cfg0.N)) (iblk m c 1 (⟨n, hb⟩ : Fin cfg0.N)) i
    · rw [dif_neg h0, dif_neg h1, if_neg h0]
      refine (congrFun (Pieces.scratch_middle (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _)
        (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc) i).trans ?_
      exact step_at acc (iblk m c 0 (⟨n, hb⟩ : Fin cfg0.N)) (iblk m c 1 (⟨n, hb⟩ : Fin cfg0.N)) i

/-- The scratch after point t: zero plus the addends of the run's points up to t. -/
theorem scratch_after (c : Dev nD) (t : Fin cfg0.N) (i : S1024x1024.Idx) :
    (outsAt0 m c t.val t.isLt).2 i
      = 0 + ∑ s ∈ Finset.range (t.val % 4 + 1), addend m c (4 * (t.val / 4) + s) i := by
  rw [Value.soutsAt0_0_eq m c t]
  exact Pipeline.accAt_add_apply (β := EReal)
    (fun n h => Value.scAt0_0 m c n h (VS0_0.read (Elt Ideal) VS0_0.junk)) (Value.scAt0_0 m c)
    (fun _ => 0) (addend m c) (4 * (t.val / 4)) 3
    (fun h i => by
      show Value.scAt0_0 m c (4 * (t.val / 4)) h _ i = (0 : EReal) + addend m c (4 * (t.val / 4)) i
      rw [scAt_apply, if_pos (show 4 * (t.val / 4) % 4 = 0 by omega)])
    (fun n h acc i hlt hle => by rw [scAt_apply, if_neg (show ¬n % 4 = 0 by omega)])
    (t.val % 4) (by omega) _ i

/-- `X · W + bias row` over the three staged arrays. -/
def blocked (X W : (⟨2, ![4096, 4096]⟩ : Shape).Idx → EReal) (B : (⟨2, ![1, 4096]⟩ : Shape).Idx → EReal) :
    (⟨2, ![4096, 4096]⟩ : Shape).Idx → EReal :=
  fun i => (∑ k : Fin 4096, X (ix2 (n0 := 4096) (n1 := 4096) (i 0) k) * W (ix2 (n0 := 4096) (n1 := 4096) k (i 1)))
    + B (ix2 (n0 := 1) (n1 := 4096) 0 (i 1))

/-- The block written back at the last point of a run, entry (p, q): `X · W + bias row` at the
    entry's position in the array. -/
theorem blk_value (c : Dev nD) (t : Fin cfg0.N) (h1 : t.val % 4 = 3) (p q : Fin 1024) (i : S4096x4096.Idx)
    (hi0 : (i 0).val = 1024 * (t.val / 16) + p.val) (hi1 : (i 1).val = 1024 * (t.val / 4 % 4) + q.val) :
    k0_pay3 ((outsAt0 m c t.val t.isLt).2) (iblk m c 2 t) (ix2 p q)
      = blocked (lhsArr m c) (rhsArr m c) (biasArr m c) i := by
  have hN : t.val < 64 := lt_of_lt_of_eq t.isLt N_0
  refine (Payload.bias_apply ((outsAt0 m c t.val t.isLt).2) (iblk m c 2 t) p q).trans ?_
  unfold blocked
  refine congrArg₂ (· + ·) ?_ ?_
  · rw [scratch_after, zero_add, show t.val % 4 + 1 = 4 by omega, Spec.sum_stretches]
    refine Finset.sum_congr rfl fun s hs => ?_
    have hs4 : s < 4 := Finset.mem_range.mp hs
    have hlt : 4 * (t.val / 4) + s < cfg0.N := lt_of_lt_of_eq (by omega : 4 * (t.val / 4) + s < 64) N_0.symm
    have hM : addend m c (4 * (t.val / 4) + s) (ix2 p q)
        = blockProd (iblk m c 0 ⟨4 * (t.val / 4) + s, hlt⟩) (iblk m c 1 ⟨4 * (t.val / 4) + s, hlt⟩) (ix2 p q) := dif_pos hlt
    rw [hM]
    unfold blockProd
    refine Finset.sum_congr rfl fun j _ => ?_
    have hj := j.isLt
    have hpos : 1024 * s + j.val < 4096 := by omega
    rw [Spec.term_of_lt _ _ hpos]
    show _ = lhsArr m c (ix2 (n0 := 4096) (n1 := 4096) (i 0) ⟨1024 * s + j.val, hpos⟩)
      * rhsArr m c (ix2 (n0 := 4096) (n1 := 4096) ⟨1024 * s + j.val, hpos⟩ (i 1))
    refine congrArg₂ (· * ·) ?_ ?_
    · exact lhs_blk m c ⟨4 * (t.val / 4) + s, hlt⟩ p j _
        (by show (i 0).val = 1024 * ((4 * (t.val / 4) + s) / 16) + p.val; omega)
        (by show 1024 * s + j.val = 1024 * ((4 * (t.val / 4) + s) % 4) + j.val; omega)
    · exact rhs_blk m c ⟨4 * (t.val / 4) + s, hlt⟩ j q _
        (by show 1024 * s + j.val = 1024 * ((4 * (t.val / 4) + s) % 4) + j.val; omega)
        (by show (i 1).val = 1024 * ((4 * (t.val / 4) + s) / 4 % 4) + q.val; omega)
  · exact bias_blk m c t q _ hi1

/-- What a writing-back point writes is its block of `X · W + bias row`. -/
theorem flushed_eq (c : Dev nD) (t : Fin cfg0.N) (hf : (cfg0.win 3).flush t = true) :
    (dats m 0 c).flushed 3 t
      = ((cfg0.win 3).blk t).view.read (Elt Ideal) (blocked (lhsArr m c) (rhsArr m c) (biasArr m c)) := by
  have h1 : t.val % 4 = 3 := (flush0_3 t).mp hf
  have h0 : ¬t.val % 4 = 0 := by omega
  have hout : (dats m 0 c).flushed 3 t
      = (cfg0.win 3).cut (grid0.coords t) (k0_pay3 ((outsAt0 m c t.val t.isLt).2) (iblk m c 2 t)) := by
    have hs : (outsAt0 m c t.val t.isLt).2
        = sout0_C_0 c (grid0.coords t) (ms0_0 t) (hs0_0 t) (ms0_1 t) (hs0_1 t) (ms0_2 t) (hs0_2 t) (ms0_3 t) (hs0_3 t) scM0_0 (Memref.isWhole_whole _)
            (fun h => h0 ((hcond0_0 t).mp h)) ((hcond0_1 t).mpr h1) (iblk m c 0 t) (iblk m c 1 t) (iblk m c 2 t)
            ((outsAt0 m c (t.val - 1) (Nat.lt_of_le_of_lt (Nat.sub_le _ _) t.isLt)).2) := by
      simp only [outsAt0_C m c t h0 h1]
    rw [Value.flushed3_C m c t h0 h1]
    refine congrArg ((cfg0.win 3).cut (grid0.coords t)) ?_
    rw [hs,
      Pieces.scratch_last (F := Ideal) c (grid0.coords t) (ms0_0 t) (hs0_0 t) (ms0_1 t) (hs0_1 t) (ms0_2 t) (hs0_2 t) (ms0_3 t) (hs0_3 t) scM0_0 (Memref.isWhole_whole _)
        (fun h => h0 ((hcond0_0 t).mp h)) ((hcond0_1 t).mpr h1) (iblk m c 0 t) (iblk m c 1 t) (iblk m c 2 t)
        ((outsAt0 m c (t.val - 1) (Nat.lt_of_le_of_lt (Nat.sub_le _ _) t.isLt)).2),
      Pieces.out_last (F := Ideal) c (grid0.coords t) (ms0_0 t) (hs0_0 t) (ms0_1 t) (hs0_1 t) (ms0_2 t) (hs0_2 t) (ms0_3 t) (hs0_3 t) scM0_0 (Memref.isWhole_whole _)
        (fun h => h0 ((hcond0_0 t).mp h)) ((hcond0_1 t).mpr h1) (iblk m c 0 t) (iblk m c 1 t) (iblk m c 2 t)
        ((outsAt0 m c (t.val - 1) (Nat.lt_of_le_of_lt (Nat.sub_le _ _) t.isLt)).2)]
  rw [hout]
  funext y
  show k0_pay3 ((outsAt0 m c t.val t.isLt).2) (iblk m c 2 t) y
    = blocked (lhsArr m c) (rhsArr m c) (biasArr m c) (((cfg0.win 3).blk t).view.emb y)
  refine (congrArg (k0_pay3 ((outsAt0 m c t.val t.isLt).2) (iblk m c 2 t)) (eq_ix2 (n0 := 1024) (n1 := 1024) y)).trans ?_
  exact blk_value m c t h1 (y 0) (y 1) _ (out_pos t y).1 (out_pos t y).2

/-- An index of the array is in point t's output block iff each coordinate is in the block's range. -/
theorem mem_blk (t : Fin cfg0.N) (i : S4096x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v4).slice (win0_3.rect t)).set ↔ _
  rw [View.set_slice_whole, Rect.mem_set_unit]
  exact Iff.rfl

/-- Every entry of the array lies in the block of the last point of some run. -/
theorem cover (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  have hlt : 16 * ((i 0).val / 1024) + 4 * ((i 1).val / 1024) + 3 < cfg0.N :=
    lt_of_lt_of_eq (by omega : 16 * ((i 0).val / 1024) + 4 * ((i 1).val / 1024) + 3 < 64) N_0.symm
  refine ⟨⟨16 * ((i 0).val / 1024) + 4 * ((i 1).val / 1024) + 3, hlt⟩, (flush0_3 _).mpr (by show (16 * ((i 0).val / 1024) + 4 * ((i 1).val / 1024) + 3) % 4 = 3; omega), ?_⟩
  obtain ⟨-, -, -, -, -, -, e0, e1⟩ := idx_facts ⟨16 * ((i 0).val / 1024) + 4 * ((i 1).val / 1024) + 3, hlt⟩
  rw [mem_blk]
  intro a
  match a with
  | ⟨0, _⟩ =>
    show win0_3.index _ (0 : Fin 2) * 1024 ≤ (i 0).val ∧ (i 0).val < win0_3.index _ (0 : Fin 2) * 1024 + 1024
    rw [e0]; show (16 * ((i 0).val / 1024) + 4 * ((i 1).val / 1024) + 3) / 16 * 1024 ≤ (i 0).val ∧ (i 0).val < (16 * ((i 0).val / 1024) + 4 * ((i 1).val / 1024) + 3) / 16 * 1024 + 1024
    omega
  | ⟨1, _⟩ =>
    show win0_3.index _ (1 : Fin 2) * 1024 ≤ (i 1).val ∧ (i 1).val < win0_3.index _ (1 : Fin 2) * 1024 + 1024
    rw [e1]; show (16 * ((i 0).val / 1024) + 4 * ((i 1).val / 1024) + 3) / 4 % 4 * 1024 ≤ (i 1).val ∧ (i 1).val < (16 * ((i 0).val / 1024) + 4 * ((i 1).val / 1024) + 3) / 4 % 4 * 1024 + 1024
    omega

/-- The result array after the run is `X · W + bias row` of the staged arrays. -/
theorem final (c : Dev nD) :
    (dats m 0 c).arrAt 3 cfg0.N = blocked (lhsArr m c) (rhsArr m c) (biasArr m c) :=
  (dats m 0 c).arrAt_eq_of_cover 3 (blocked (lhsArr m c) (rhsArr m c) (biasArr m c)) (flushed_eq m c) cover

end Cert.KernelIdeal.KValue

end
-- ==== Proof.LibTypedRef.lean ====
/-
  A host operation inside a module-local function is stated at the tensor value's own type and
  carried to and from its buffer's type along the equation between the two.  When one operation's
  result is the next one's operand the two carriers meet, and they cancel: going to the buffer's type
  and back is the identity.  Rewriting with this fact clears a composed host term of every
  intermediate carrier, leaving only those at the program's arguments and at the final result,
  which are identities by computation.
-/
import Idealize.ShloMosaic.Lib.StableHlo

namespace Cert.LibTypedRef

open Idealize.ShloMosaic Idealize.ShloMosaic.StableHlo

/-- Contents carried to a typed reference's buffer type and back are unchanged. -/
theorem ofBuf_toBuf {sig : RefSig} {Val : EltTy → Type} {T : BufTy} (x : TRef sig T) (v : T.Contents Val) :
    x.ofBuf (x.toBuf v) = v := by
  obtain ⟨r, h, h2, h3⟩ := x
  subst h
  rfl

end Cert.LibTypedRef
-- ==== Proof.KernelHost.lean ====
/-
  What the three staged arrays hold when the kernel's region is entered, as pure terms of the
  program's arguments.  Before the region the program rebuilds the dense weight matrix from the
  table `mean` and the index matrix (an index below zero is shifted up by 4096; an entry whose
  shifted index is still outside [0, 4095] is the fill constant), narrows `x` and that matrix to
  the matrix unit's input format, and gives `bias` a leading unit axis.
-/
import proofs.«108283_j73212012527737_1_alg».proof.Proof.Gen.KernelIdeal.Frame.Runs
import Idealize.ShloMosaic.Lib.StableHlo.Run
import proofs.«108283_j73212012527737_1_alg».proof.Proof.LibTypedRef

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The index matrix with negative entries shifted up by the table's length, as a column of
    one-element index vectors. -/
def wrapped (idx : IVec S4096x4096 32) : IVec S4096x4096x1 32 :=
  broadcastInDim S4096x4096x1 ![0, 1] bcast_S4096x4096_S4096x4096x1_0_1
    (select (cmpi .slt idx (broadcastInDim S4096x4096 ![] bcast_S_S4096x4096 (constantI S_ 32 0#32)))
      (addi idx (broadcastInDim S4096x4096 ![] bcast_S_S4096x4096 (constantI S_ 32 4096#32))) idx)

/-- The dense weight matrix: entry (k, j) is `mean` at the shifted index (k, j), or the fill
    constant where that index is out of range. -/
def gathered (mean : FVec F S4096 .f32) (idx : IVec S4096x4096 32) : FVec F S4096x4096 .f32 :=
  select
    (Host.reduce IntOp.andi
      (andi (cmpi .sge (wrapped idx) (broadcastInDim S4096x4096x1 ![] bcast_S_S4096x4096x1 (constantI S_ 32 0#32)))
        (cmpi .sle (wrapped idx) (broadcastInDim S4096x4096x1 ![0, 1, 2] bcast_S1x1x1_S4096x4096x1_0_1_2
          (broadcastInDim S1x1x1 ![2] bcast_S1_S1x1x1_2 (constantI S1 32 4095#32)))))
      (constantI S_ 1 1#1) reducesTo_S4096x4096x1_S4096x4096_d2 h_S_)
    (Host.gather gather_S4096_S4096x4096x1_S4096x4096_n_0_n_n_0_2_1 mean (wrapped idx))
    (broadcastInDim S4096x4096 ![] bcast_S_S4096x4096 (constant S_ .f32 0x7FC00000#32))

/-- The fold of the host operations before the region at the left operand's array, -/
theorem x_fold (V0 : Valuation τ sig (Elt F)) :
    after (List.flatten [hostOps0, hostOps0_1]) V0 (main_v1 : DevRef τ sig)
      = truncf .bf16 (V0 (main_arg0 : DevRef τ sig)) bitsLt_bf16_f32 := by
  simp only [hostOps0, hostOps0_1, List.flatten_cons, List.flatten_nil, List.append_nil, List.cons_append, List.nil_append]
  after_results_simp

attribute [local irreducible] Host.reduce Host.gather in
/-- at the right operand's array, -/
theorem w_fold (V0 : Valuation τ sig (Elt F)) :
    after (List.flatten [hostOps0, hostOps0_1]) V0 (main_v2 : DevRef τ sig)
      = truncf .bf16 (gathered (V0 (main_arg2 : DevRef τ sig)) (V0 (main_arg1 : DevRef τ sig))) bitsLt_bf16_f32 := by
  simp only [hostOps0, hostOps0_1, List.flatten_cons, List.flatten_nil, List.append_nil, List.cons_append, List.nil_append]
  after_results_simp
  simp only [Cert.LibTypedRef.ofBuf_toBuf]
  rfl

/-- and at the bias window's array. -/
theorem b_fold (V0 : Valuation τ sig (Elt F)) :
    after (List.flatten [hostOps0, hostOps0_1]) V0 (main_v3 : DevRef τ sig)
      = shapeCast S1x4096 (V0 (main_arg3 : DevRef τ sig)) shapeCasts_S4096_S1x4096 := by
  simp only [hostOps0, hostOps0_1, List.flatten_cons, List.flatten_nil, List.append_nil, List.cons_append, List.nil_append]
  after_results_simp
  rfl

/-- The left operand's array is `x` narrowed. -/
theorem entry_x (c : Dev nD) :
    V m c main_v1 = truncf .bf16 (m ((c : Thread nD τ).loc main_arg0)) bitsLt_bf16_f32 :=
  x_fold (fun b => m (c, b))

/-- The right operand's array is the rebuilt weight matrix narrowed. -/
theorem entry_w (c : Dev nD) :
    V m c main_v2 = truncf .bf16 (gathered (m ((c : Thread nD τ).loc main_arg2)) (m ((c : Thread nD τ).loc main_arg1))) bitsLt_bf16_f32 :=
  w_fold (fun b => m (c, b))

/-- The bias window's array is `bias` as one row. -/
theorem entry_b (c : Dev nD) :
    V m c main_v3 = shapeCast S1x4096 (m ((c : Thread nD τ).loc main_arg3)) shapeCasts_S4096_S1x4096 :=
  b_fold (fun b => m (c, b))

end Cert.KernelIdeal.Host

end
-- ==== Proof.KernelRun.lean ====
/-
  The kernel's run, read back over the program's arguments.  On the extended reals narrowing a
  float is the identity, so the left operand's staged array is `x`, the right operand's is the
  rebuilt weight matrix, and the bias row's entry c is `bias[c]`.  Hence the result array ends at
  `x · w + bias` with `w` the weight matrix rebuilt from `mean` and the indices.
-/
import proofs.«108283_j73212012527737_1_alg».proof.Proof.KernelValue
import proofs.«108283_j73212012527737_1_alg».proof.Proof.KernelHost
import Idealize.ShloMosaic.Lib.ValueLayout

noncomputable section

open Idealize.ShloMosaic Idealize.ShloMosaic.TcCoe Idealize.SL.Sem Idealize.ShloMosaic.ValueIdx

namespace Cert.KernelIdeal.KRun

open Cert.KernelIdeal Cert.KernelIdeal.Gen Cert.KernelIdeal.Blocks Cert.KernelIdeal.KValue

variable (m : (ℓ : Loc nD τ sig) → Buf (Elt Ideal) ℓ) (ρ : Dev nD → PrngReg)

/-- The rebuilt weight matrix, as an array of extended reals. -/
def weights (c : Dev nD) : (⟨2, ![4096, 4096]⟩ : Shape).Idx → EReal :=
  Host.gathered (F := Ideal) (m ((c : Thread nD τ).loc main_arg2)) (m ((c : Thread nD τ).loc main_arg1))

theorem lhs_eq (c : Dev nD) : lhsArr m c = m ((c : Thread nD τ).loc main_arg0) :=
  (Host.entry_x (F := Ideal) m c).trans (funext fun _ => rfl)

theorem rhs_eq (c : Dev nD) : rhsArr m c = weights m c := by
  have h : (truncf .bf16 (Host.gathered (F := Ideal) (m ((c : Thread nD τ).loc main_arg2)) (m ((c : Thread nD τ).loc main_arg1)))
      bitsLt_bf16_f32 : (⟨2, ![4096, 4096]⟩ : Shape).Idx → EReal) = weights m c :=
    funext fun i => truncf_apply _ _ i
  exact (Host.entry_w (F := Ideal) m c).trans h

theorem bias_eq (c : Dev nD) (q : Fin 4096) :
    biasArr m c (ix2 (0 : Fin 1) q) = m ((c : Thread nD τ).loc main_arg3) (ix1 q) :=
  (congrFun (Host.entry_b (F := Ideal) m c) (ix2 (0 : Fin 1) q)).trans
    (shapeCast_a_1a_apply (m ((c : Thread nD τ).loc main_arg3)) shapeCasts_S4096_S1x4096 0 q)

/-- `X · W + bias row` of the staged arrays is `x · w + bias` of the arguments. -/
theorem blocked_eq (c : Dev nD) :
    blocked (lhsArr m c) (rhsArr m c) (biasArr m c)
      = Cert.Spec.affine (m ((c : Thread nD τ).loc main_arg0)) (weights m c) (m ((c : Thread nD τ).loc main_arg3)) := by
  rw [lhs_eq, rhs_eq]
  funext i
  unfold blocked Cert.Spec.affine Cert.Spec.affineAt
  rw [bias_eq m c (i 1)]

/-- Every weakly fair execution ends with the result array at `x · w + bias` and the arguments unchanged. -/
theorem run : θ_run defs (onTc (τ := τ) (main (F := Ideal))) ⟨m, fun _ => 0, ρ⟩ fun r => ∀ c : Dev nD,
      r.2.mem ((c : Thread nD τ).loc main_v4)
        = Cert.Spec.affine (m ((c : Thread nD τ).loc main_arg0)) (weights m c) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((KValue.final m c).trans (blocked_eq m c)), (h c).2⟩)
    (Value.run_blocks m ρ)

end Cert.KernelIdeal.KRun

end
-- ==== Proof.RefOps.lean ====
/-
  The reference program as a straight line of operations, and the pure term it computes.

  The reference first rebuilds the dense weight matrix from the table `mean` and the index matrix:
  an index below zero is shifted up by 4096, the shifted index selects an entry of `mean`, and an
  entry whose shifted index still lies outside [0, 4095] is replaced by the fill constant
  (`gathered`).  It then multiplies `x` by that matrix (one contraction over the shared axis of
  length 4096) and adds `bias` to every row (`affine`).  The program's text, with its two
  module-local functions unfolded at their calls, is the list `ops` of twenty-six operations.
-/
import proofs.«108283_j73212012527737_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The index matrix with negative entries shifted up by the table's length, as a column of
    one-element index vectors. -/
def wrapped (idx : IVec S4096x4096 32) : IVec S4096x4096x1 32 :=
  broadcastInDim S4096x4096x1 ![0, 1] bcast_S4096x4096_S4096x4096x1_0_1
    (select (cmpi .slt idx (broadcastInDim S4096x4096 ![] bcast_S_S4096x4096 (constantI S_ 32 0#32)))
      (addi idx (broadcastInDim S4096x4096 ![] bcast_S_S4096x4096 (constantI S_ 32 4096#32))) idx)

/-- The dense weight matrix: entry (k, j) is `mean` at the shifted index (k, j), or the fill
    constant where that index is out of range. -/
def gathered (mean : FVec F S4096 .f32) (idx : IVec S4096x4096 32) : FVec F S4096x4096 .f32 :=
  select
    (Host.reduce IntOp.andi
      (andi (cmpi .sge (wrapped idx) (broadcastInDim S4096x4096x1 ![] bcast_S_S4096x4096x1 (constantI S_ 32 0#32)))
        (cmpi .sle (wrapped idx) (broadcastInDim S4096x4096x1 ![0, 1, 2] bcast_S1x1x1_S4096x4096x1_0_1_2
          (broadcastInDim S1x1x1 ![2] bcast_S1_S1x1x1_2 (constantI S1 32 4095#32)))))
      (constantI S_ 1 1#1) reducesTo_S4096x4096x1_S4096x4096_d2 h_S_)
    (Host.gather gather_S4096_S4096x4096x1_S4096x4096_n_0_n_n_0_2_1 mean (wrapped idx))
    (broadcastInDim S4096x4096 ![] bcast_S_S4096x4096 (constant S_ .f32 0x7FC00000#32))

/-- The reference's result: `x` times a weight matrix `w`, plus `bias` on every row. -/
def affine (x w : FVec F S4096x4096 .f32) (bias : FVec F S4096 .f32) : FVec F S4096x4096 .f32 :=
  addf (Host.dotGeneral dot_S4096x4096_S4096x4096_S4096x4096_1_0_0_1_n_n none x w)
    (broadcastInDim S4096x4096 ![0, 1] bcast_S1x4096_S4096x4096_0_1 (broadcastInDim S1x4096 ![1] bcast_S4096_S1x4096_1 bias))

/-- The program's operations in order: the twenty-two that rebuild the weight matrix, then the
    product, the two broadcasts of `bias` and the sum. -/
abbrev ops : List (HloOp τ sig (Elt F)) :=
  [ TRef.nullary main_call0.c (constantI S_ 32 0#32),
    TRef.unary main_call0.c main_call0.v0 (broadcastInDim S4096x4096 ![] bcast_S_S4096x4096),
    TRef.binary (.of main_arg1) main_call0.v0 main_call0.v1 (cmpi .slt),
    TRef.nullary main_call0.c_0 (constantI S_ 32 4096#32),
    TRef.unary main_call0.c_0 main_call0.v2 (broadcastInDim S4096x4096 ![] bcast_S_S4096x4096),
    TRef.binary (.of main_arg1) main_call0.v2 main_call0.v3 addi,
    TRef.ternary main_call0.v1 main_call0.v3 (.of main_arg1) main_call0.call0.v0 select,
    TRef.unary main_call0.call0.v0 main_call0.v5 (broadcastInDim S4096x4096x1 ![0, 1] bcast_S4096x4096_S4096x4096x1_0_1),
    TRef.nullary main_call0.c_1 (constantI S1 32 4095#32),
    TRef.nullary main_call0.c_2 (constantI S_ 32 0#32),
    TRef.unary main_call0.c_2 main_call0.v6 (broadcastInDim S4096x4096x1 ![] bcast_S_S4096x4096x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x4096x1 ![0, 1, 2] bcast_S1x1x1_S4096x4096x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x4096x1_S4096x4096_d2 h_S_),
    TRef.binary (.of main_arg2) main_call0.v5 main_call0.v13 (fun x i => Host.gather gather_S4096_S4096x4096x1_S4096x4096_n_0_n_n_0_2_1 x i),
    TRef.nullary main_call0.cst (constant S_ .f32 0x7FC00000#32),
    TRef.unary main_call0.cst main_call0.v14 (broadcastInDim S4096x4096 ![] bcast_S_S4096x4096),
    TRef.ternary main_call0.v12 main_call0.v13 main_call0.v14 main_call0.v15 select,
    binary main_arg0 main_v0 main_v1 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    unary main_arg3 main_v2 (broadcastInDim S1x4096 ![1] bcast_S4096_S1x4096_1 : (⟨S4096, .f32⟩ : BufTy).Contents (Elt F) → (⟨S1x4096, .f32⟩ : BufTy).Contents (Elt F)),
    unary main_v2 main_v3 (broadcastInDim S4096x4096 ![0, 1] bcast_S1x4096_S4096x4096_0_1 : (⟨S1x4096, .f32⟩ : BufTy).Contents (Elt F) → (⟨S4096x4096, .f32⟩ : BufTy).Contents (Elt F)),
    binary main_v1 main_v3 main_v4 (addf : (⟨S4096x4096, .f32⟩ : BufTy).Contents (Elt F) → (⟨S4096x4096, .f32⟩ : BufTy).Contents (Elt F) → (⟨S4096x4096, .f32⟩ : BufTy).Contents (Elt F)) ]

set_option maxRecDepth 1024 in
/-- The program is that straight line: the two module-local functions unfolded at their calls. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub ..,
    binary_bufs_sub .., unary_bufs_sub .., unary_bufs_sub .., binary_bufs_sub ..⟩

end Cert.ReferenceIdeal.RefRun

end
-- ==== Proof.RefRun.lean ====
/-
  The reference program's run, read back: every weakly fair execution of the straight line ends
  with the result buffer holding `affine x (gathered mean idx) bias` of the argument buffers'
  launch contents, and the four argument buffers unchanged.  What a buffer holds after the line is
  the fold of the operations' results over the launch contents; at the result buffer that fold is
  the composed term by unfolding alone, and no operation writes an argument buffer.
-/
import proofs.«108283_j73212012527737_1_alg».proof.Proof.RefOps
import proofs.«108283_j73212012527737_1_alg».proof.Proof.LibTypedRef

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.gather in
/-- The fold at the result buffer is the composed term. -/
theorem out_eq (V : Valuation τ sig (Elt F)) :
    after ops V (main_v4 : DevRef τ sig)
      = affine (V (main_arg0 : DevRef τ sig)) (gathered (V (main_arg2 : DevRef τ sig)) (V (main_arg1 : DevRef τ sig)))
          (V (main_arg3 : DevRef τ sig)) := by
  after_results_simp
  simp only [Cert.LibTypedRef.ofBuf_toBuf]
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

/-- Every weakly fair execution ends with the result buffer at `affine x (gathered mean idx) bias`
    of the arguments' launch contents, and the four arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4)
        = affine (m ((c.tc : Thread nD τ).loc main_arg0))
            (gathered (m ((c.tc : Thread nD τ).loc main_arg2)) (m ((c.tc : Thread nD τ).loc main_arg1)))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v4).trans (out_eq _),
      (h c main_arg0).trans (arg0_eq _),
      (h c main_arg1).trans (arg1_eq _),
      (h c main_arg2).trans (arg2_eq _),
      (h c main_arg3).trans (arg3_eq _)⟩)
    (run_seq scopedRefs_eq scopedSems_eq defs main (fun _ => ops) main_eq (fun _ => ops_sub) m ρ)

end Cert.ReferenceIdeal.RefRun

end
-- ==== Proof.RefValue.lean ====
/-
  The reference's term read entry by entry on the extended reals: the host's matrix product at
  (r, c) is the sum over the 4096 positions k of `x[r, k] · w[k, c]`, and the two broadcasts of
  `bias` put `bias[c]` at every row of column c.  So the reference computes `x · w + bias`.
-/
import proofs.«108283_j73212012527737_1_alg».proof.Proof.RefOps
import proofs.«108283_j73212012527737_1_alg».proof.Proof.Spec
import Idealize.ShloMosaic.Lib.ValueIdx
import Idealize.ShloMosaic.Lib.Pipeline.Value
import Idealize.ShloMosaic.PureOps.Ideal.Laws

noncomputable section

open Idealize.ShloMosaic Idealize.ShloMosaic.TcCoe Idealize.ShloMosaic.ValueIdx

namespace Cert.ReferenceIdeal.RefValue

open Cert.ReferenceIdeal Cert.ReferenceIdeal.Gen

/-- The product's contraction index is its one coordinate, a position among 4096. -/
abbrev contr : dot_S4096x4096_S4096x4096_S4096x4096_1_0_0_1_n_n.contr.Idx ≃ Fin 4096 :=
  contrEquiv1 dot_S4096x4096_S4096x4096_S4096x4096_1_0_0_1_n_n 4096 rfl rfl

/-- At result entry (r, c) and position k the left operand is read at (r, k), -/
theorem lhs_at (r c k : Fin 4096) :
    dot_S4096x4096_S4096x4096_S4096x4096_1_0_0_1_n_n.lhsIdx (ix2 r c) (contr.symm k) = ix2 r k := by
  funext a
  apply Fin.ext
  match a with
  | ⟨0, _⟩ => rfl
  | ⟨1, _⟩ =>
    exact (DotDims.lhsIdx_val_of_single _ (cl := (1 : Fin 2)) rfl _ _).trans
      (contrEquiv1_symm_val dot_S4096x4096_S4096x4096_S4096x4096_1_0_0_1_n_n 4096 rfl rfl k)

/-- and the right operand at (k, c). -/
theorem rhs_at (r c k : Fin 4096) :
    dot_S4096x4096_S4096x4096_S4096x4096_1_0_0_1_n_n.rhsIdx (ix2 r c) (contr.symm k) = ix2 k c := by
  funext a
  apply Fin.ext
  match a with
  | ⟨0, _⟩ =>
    exact (DotDims.rhsIdx_val_of_single _ (cr := (0 : Fin 2)) rfl _ _).trans
      (contrEquiv1_symm_val dot_S4096x4096_S4096x4096_S4096x4096_1_0_0_1_n_n 4096 rfl rfl k)
  | ⟨1, _⟩ => rfl

/-- The host's product at (r, c): the sum over the shared axis. -/
theorem product_apply (x w : FVec Ideal S4096x4096 .f32) (r c : Fin 4096) :
    Host.dotGeneral dot_S4096x4096_S4096x4096_S4096x4096_1_0_0_1_n_n none x w (ix2 r c)
      = ∑ k : Fin 4096, x (ix2 r k) * w (ix2 k c) := by
  refine (Ideal.dotGeneral_apply dot_S4096x4096_S4096x4096_S4096x4096_1_0_0_1_n_n none .single x w (ix2 r c)).trans ?_
  refine (Equiv.sum_comp contr.symm _).symm.trans ?_
  exact Finset.sum_congr rfl fun k _ => by rw [lhs_at, rhs_at]

/-- `bias` broadcast to a row and then down the rows: entry (r, c) is `bias[c]`. -/
theorem bias_apply (b : FVec Ideal S4096 .f32) (r c : Fin 4096) :
    broadcastInDim S4096x4096 ![0, 1] bcast_S1x4096_S4096x4096_0_1 (broadcastInDim S1x4096 ![1] bcast_S4096_S1x4096_1 b) (ix2 r c)
      = b (ix1 c) := by
  refine (broadcastInDim_apply _ bcast_S1x4096_S4096x4096_0_1 _ (ix2 r c) (ix2 (0 : Fin 1) c) fun a => ?_).trans
    (broadcastInDim_apply _ bcast_S4096_S1x4096_1 b (ix2 (0 : Fin 1) c) (ix1 c) fun a => ?_)
  · match a with
    | ⟨0, _⟩ => rfl
    | ⟨1, _⟩ => rfl
  · match a with
    | ⟨0, _⟩ => rfl

/-- The reference's term is `x · w + bias`. -/
theorem affine_eq (x w : FVec Ideal S4096x4096 .f32) (b : FVec Ideal S4096 .f32) :
    RefRun.affine x w b = Cert.Spec.affine x w b := by
  funext i
  obtain ⟨r, c, rfl⟩ : ∃ (r c : Fin 4096), i = ix2 r c := ⟨i 0, i 1, eq_ix2 i⟩
  show Host.dotGeneral dot_S4096x4096_S4096x4096_S4096x4096_1_0_0_1_n_n none x w (ix2 r c)
      + broadcastInDim S4096x4096 ![0, 1] bcast_S1x4096_S4096x4096_0_1 (broadcastInDim S1x4096 ![1] bcast_S4096_S1x4096_1 b) (ix2 r c)
    = (∑ k : Fin 4096, x (ix2 r k) * w (ix2 k c)) + b (ix1 c)
  rw [product_apply, bias_apply]

end Cert.ReferenceIdeal.RefValue

end
-- ==== Proof.lean ====
/-
  The kernel computes `x · w + bias`, where `w[k, j] = mean[indices[k, j]]` is the dense weight matrix
  rebuilt from a table and an index matrix; so does its reference.

  The kernel rebuilds `w` with the same operations as the reference, narrows `x` and `w` to the
  matrix unit's input format (the identity on the extended reals), and multiplies block by block:
  output block (i, j) is accumulated over the four contraction blocks l = 0 … 3 in a scratch buffer
  that starts from zero, and the bias row is added when the last block has been added.  Entry
  (r, c) of the result is therefore `0 + ∑_{l < 4} ∑_{k < 1024} x[r, 1024 l + k] · w[1024 l + k, c]`
  plus `bias[c]`.  The reference's entry is the single sum `∑_{k < 4096} x[r, k] · w[k, c]` plus
  `bias[c]`.  The two sums have the same terms, grouped differently; addition of extended reals is
  commutative and associative, so they are equal with no assumption on the inputs.

  The three frames: both kernel programs' are the generated frame certificates; the reference is
  a straight line of host operations whose run (Proof/RefRun.lean) leaves its arguments unchanged.
  The idealization rewrote nothing, so the preservation claim is trivial.
-/
import proofs.«108283_j73212012527737_1_alg».proof.Defs
import proofs.«108283_j73212012527737_1_alg».proof.Proof.Gen.Kernel
import proofs.«108283_j73212012527737_1_alg».proof.Proof.Gen.Kernel.Skeleton
import proofs.«108283_j73212012527737_1_alg».proof.Proof.Gen.Kernel.Launch
import proofs.«108283_j73212012527737_1_alg».proof.Proof.Gen.Kernel.Points
import proofs.«108283_j73212012527737_1_alg».proof.Proof.Gen.Kernel.Frame
import proofs.«108283_j73212012527737_1_alg».proof.Proof.Gen.KernelIdeal
import proofs.«108283_j73212012527737_1_alg».proof.Proof.Gen.KernelIdeal.Skeleton
import proofs.«108283_j73212012527737_1_alg».proof.Proof.Gen.KernelIdeal.Launch
import proofs.«108283_j73212012527737_1_alg».proof.Proof.Gen.KernelIdeal.Points
import proofs.«108283_j73212012527737_1_alg».proof.Proof.Gen.KernelIdeal.Frame
import proofs.«108283_j73212012527737_1_alg».proof.Proof.Gen.KernelIdeal.Value
import proofs.«108283_j73212012527737_1_alg».proof.Proof.Gen.ReferenceIdeal
import proofs.«108283_j73212012527737_1_alg».proof.Proof.Gen.Pre_finite_inputs
import proofs.«108283_j73212012527737_1_alg».proof.Proof.KernelRun
import proofs.«108283_j73212012527737_1_alg».proof.Proof.RefRun
import proofs.«108283_j73212012527737_1_alg».proof.Proof.RefValue
import Idealize.ShloMosaic.Adequacy
import Idealize.ShloMosaic.Init

noncomputable section

namespace Cert.Proof

open Idealize.ShloMosaic Idealize.ShloMosaic.TcCoe Idealize.SL.Sem

/-- Both programs rebuild the weight matrix by the same operations on the same table and indices. -/
theorem weights_agree (mean : FVec Ideal Cert.KernelIdeal.S4096 .f32) (idx : IVec Cert.KernelIdeal.S4096x4096 32) :
    Cert.ReferenceIdeal.RefRun.gathered (F := Ideal) mean idx = Cert.KernelIdeal.Host.gathered (F := Ideal) mean idx := rfl

theorem frame_kernel : Cert.frame_Kernel := fun m ρ _ => Cert.Kernel.Gen.frame m ρ

theorem frame_kernelIdeal : Cert.frame_KernelIdeal := fun m ρ _ => Cert.KernelIdeal.Gen.frame m ρ

/-- The reference's run leaves its four arguments as launched. -/
theorem frame_referenceIdeal : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- From memories that agree on the arguments both runs end with the result at `x · w + bias`. -/
theorem algebraic : Cert.algebraic_KernelIdeal_ReferenceIdeal := by
  intro m ρ m' ρ' _ hagree
  refine ⟨_, Cert.KernelIdeal.KRun.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2, Cert.ReferenceIdeal.RefValue.affine_eq]
  exact congrArg (fun w => Cert.Spec.affine _ w _) (weights_agree _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
